-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 94
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  reduces_S5000x64_S64 : S5000x64.Reduces [0] S64
  shapeCasts_S64_S1x64 : S64.ShapeCasts S1x64
  shapeCasts_S1x64_S64 : S1x64.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x64.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.WholeRun.lean ====
/-
  The kernel program's run with its result kept.

  @main of the kernel program is ten segments: stretches of host operations and three pipelined regions. The buffer
  contents at the segment boundaries are a fold from the launch memory: a stretch applies its operations, a region
  replaces its arrays by what its write-backs leave and keeps every other buffer. The last boundary's contents are
  `W10 m ρ c`. Every weakly fair execution terminates with every unscoped buffer at those contents; read at the
  result buffer this is the result as a function of the launch memory, and read at an argument it is the argument
  as launched (no stretch and no region writes an argument).
-/
import proofs.«118084_j28355374088793_1_alg».proof.Proof.Gen.KernelIdeal.Frame

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and each argument as launched. -/
theorem run_result : θ_run defs (onTc (τ := τ) (main (F := F))) ⟨m, fun _ => 0, ρ⟩ (fun r => ∀ c : Dev nD,
      r.2.mem ((c.tc : Thread nD τ).loc main_v68) = W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.WholeRun

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.MatmulRegion.lean ====
/-
  What the two matrix-product regions leave in their output arrays, on the extended reals.

  Each region walks 20 grid points; at point `t` it reads rows `5000 t … 5000 t + 4999` of its left operand and the
  whole right operand, multiplies them into a zero accumulator, and writes the product back as rows
  `5000 t … 5000 t + 4999` of the output.  Narrowing an operand to the shorter format is the identity on the extended
  reals, so the entry at row `p`, column `q` of a block's product is the sum over `k` of the left block at `(p, k)`
  times the right operand at `(k, q)`.  The blocks are the restrictions of ONE whole-array function — row `r`, column
  `q` of the output is row `r` of the left operand times column `q` of the right operand — and the 20 row blocks cover
  the output, so after the region the output array is that function, whatever the arrays held when the region was
  entered.
-/
import proofs.«118084_j28355374088793_1_alg».proof.Proof.Gen.KernelIdeal.Frame
import proofs.«118084_j28355374088793_1_alg».proof.Proof.LibRowOps
import Idealize.ShloMosaic.Lib.Pipeline.Value
import Idealize.ShloMosaic.Lib.ValueIdx
import Idealize.ShloMosaic.PureOps.Ideal.Laws

noncomputable section

namespace Cert.KernelIdeal.MatmulRegion

open Cert.KernelIdeal Cert.KernelIdeal.Gen Idealize.ShloMosaic Idealize.ShloMosaic.TcCoe Idealize.SL.Sem
open Idealize.ShloMosaic.ValueIdx
open Idealize.ShloMosaic.Pipeline (Dat)

/-! ## Region 0: a [5000,128] block of the left operand times the [128,128] right operand -/

/-- Both whole-buffer accesses start at offset zero on each axis. -/
theorem zeroOffsets : (![0, 0] : Fin 2 → Nat) = fun _ => 0 := funext fun a => by fin_cases a <;> rfl

/-- The dimension numbers of region 0's product: contract the left operand's columns with the right operand's rows. -/
abbrev dims0 : DotDims S5000x128 S128x128 S5000x128 := dot_S5000x128_S128x128_S5000x128_1_0_0_1_n_n

/-- The left operand's row is the output's row. -/
theorem dims0_lhs_row (j : S5000x128.Idx) (x : dims0.contr.Idx) : (dims0.lhsIdx j x 0).val = (j 0).val := by
  unfold DotDims.lhsIdx
  rw [dif_neg (show ¬(0 : Fin S5000x128.rank) ∈ dims0.lhsBatch by decide), dif_pos (show (0 : Fin S5000x128.rank) ∈ dims0.lhsNonContracting by decide)]
  rfl
/-- The left operand's column is the contracted coordinate. -/
theorem dims0_lhs_col (j : S5000x128.Idx) (x : dims0.contr.Idx) : (dims0.lhsIdx j x 1).val = (x ⟨0, by decide⟩).val :=
  dims0.lhsIdx_val_of_single rfl j x
/-- The right operand's row is the contracted coordinate. -/
theorem dims0_rhs_row (j : S5000x128.Idx) (x : dims0.contr.Idx) : (dims0.rhsIdx j x 0).val = (x ⟨0, by decide⟩).val :=
  dims0.rhsIdx_val_of_single rfl j x
/-- The right operand's column is the output's column. -/
theorem dims0_rhs_col (j : S5000x128.Idx) (x : dims0.contr.Idx) : (dims0.rhsIdx j x 1).val = (j 1).val := by
  unfold DotDims.rhsIdx
  rw [dif_neg (show ¬(1 : Fin S128x128.rank) ∈ dims0.rhsBatch by decide), dif_pos (show (1 : Fin S128x128.rank) ∈ dims0.rhsNonContracting by decide)]
  rfl

/-- What one grid point stores, read at row `p` and column `q` of its block: the narrowing of the operands is the
    identity on the extended reals and the accumulator is zero, so it is the row of the left block times the column
    of the right operand. -/
theorem blockProduct0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibRowOps.matmul_zero_apply (m := 5000) (k := 128) (n := 128) dims0 none
    (truncf .bf16 x0 bitsLt_bf16_f32) (truncf .bf16 x1 bitsLt_bf16_f32) rfl rfl
    dims0_lhs_row dims0_lhs_col dims0_rhs_row dims0_rhs_col p q

/-- The index maps of region 0's three windows, decided over the grid: at point `t` the left operand's window and the
    output's are at row block `t`, the right operand's window is the whole operand. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array product: entry `(r, q)` is row `r` of the left operand times column `q` of the right operand. -/
def product0 (a : S100000x128.Idx → EReal) (w : S128x128.Idx → EReal) : S100000x128.Idx → EReal :=
  fun i => ∑ k : Fin 128, a (ix2 (⟨(i 0).val, (i 0).isLt⟩ : Fin 100000) k) * w (ix2 k (⟨(i 1).val, (i 1).isLt⟩ : Fin 128))

variable (V : (c : Dev nD) → (b : Ref sig .tc) → Buf (Elt Ideal) ((c : Thread nD τ).loc b))

/-- The left operand's block at point `t` is its rows `5000 t … 5000 t + 4999`. -/
theorem leftBlock0_apply (c : Dev nD) (t : Fin cfg0.N) (y : Fin 5000) (k : Fin 128) (r : Fin 100000)
    (hr : r.val = 5000 * t.val + y.val) :
    (iblk0 V c 0 t : Vec Ideal S5000x128 .f32) (ix2 y k) = (V c main_arg0 : S100000x128.Idx → EReal) (ix2 r k) := by
  obtain ⟨e0, e1, -⟩ := index_facts0 t
  unfold iblk0
  rw [View.read_apply]
  show (V c main_arg0 : S100000x128.Idx → EReal) _ = _
  congr 1
  funext a
  apply Fin.ext
  match a with
  | ⟨0, _⟩ => show win0_0.index t (0 : Fin 2) * 5000 + 1 * y.val = r.val; rw [e0, hr]; omega
  | ⟨1, _⟩ => show win0_0.index t (1 : Fin 2) * 128 + 1 * k.val = k.val; rw [e1]; omega

/-- The right operand's block at every point is the whole operand. -/
theorem rightBlock0_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -⟩ := index_facts0 t
  unfold iblk0
  rw [View.read_apply]
  show (V c main_arg2 : S128x128.Idx → EReal) _ = _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point `t` writes back is block `t` of the whole-array product of the operands as the region finds them. -/
theorem flushed0_eq (c : Dev nD) (t : Fin cfg0.N) :
    (dat0 (F := Ideal) V c).flushed 2 t
      = ((cfg0.win 2).blk t).view.read (Elt Ideal) (product0 (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨-, -, -, -, e4, e5⟩ := index_facts0 t
  funext j
  obtain ⟨p, q, hj⟩ : ∃ (p : Fin 5000) (q : Fin 128), j = (ix2 p q : S5000x128.Idx) := ⟨j 0, j 1, eq_ix2 (n0 := 5000) (n1 := 128) j⟩
  subst hj
  show k0_pay1 (iblk0 V c 0 t) (iblk0 V c 1 t) (ix2 p q)
      = product0 (V c main_arg0) (V c main_arg2) (((cfg0.win 2).blk t).view.emb (ix2 p q))
  refine (blockProduct0_apply (iblk0 V c 0 t) (iblk0 V c 1 t) p q).trans ?_
  unfold product0
  refine Finset.sum_congr rfl fun k _ => ?_
  refine congrArg₂ (· * ·) (leftBlock0_apply V c t p k _ ?_)
    ((rightBlock0_apply V c t k q).trans (congrArg (V c main_arg2 : S128x128.Idx → EReal) (congrArg (ix2 k) (Fin.ext ?_))))
  · show win0_2.index t (0 : Fin 2) * 5000 + 1 * p.val = 5000 * t.val + p.val
    rw [e4]; omega
  · show q.val = win0_2.index t (1 : Fin 2) * 128 + 1 * q.val
    rw [e5]; omega

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array is in the block of the point its row falls in: row `r` is covered by point `r / 5000`. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := index_facts0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    rw [e4]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e5]; omega

/-- The output array of region 0 after the region: the whole-array product of the operands as the region finds them. -/
theorem arrAt_product0 (c : Dev nD) :
    (dat0 (F := Ideal) V c).arrAt 2 cfg0.N = product0 (V c main_arg0) (V c main_arg2) :=
  (dat0 (F := Ideal) V c).arrAt_eq_of_cover 2 (product0 (V c main_arg0) (V c main_arg2))
    (fun t _ => flushed0_eq V c t) covered0

/-- Region 0 leaves in its output array, at row `p` and column `q`, row `p` of the left operand times column `q` of the
    right operand, whatever the arrays held when the region was entered. -/
theorem arrAt_mm0 (c : Dev nD) (p : Fin 100000) (q : Fin 128) :
    (dat0 (F := Ideal) V c).arrAt 2 cfg0.N (ValueIdx.ix2 p q)
      = ∑ k : Fin 128, @HMul.hMul EReal EReal EReal instHMul ((V c main_arg0 : S100000x128.Idx → EReal) (ValueIdx.ix2 p k)) ((V c main_arg2 : S128x128.Idx → EReal) (ValueIdx.ix2 k q)) := by
  rw [arrAt_product0 V c]
  rfl

/-! ## Region 1: a [5000,128] block of the left operand times the [128,64] right operand -/

/-- The dimension numbers of region 1's product: contract the left operand's columns with the right operand's rows. -/
abbrev dims1 : DotDims S5000x128 S128x64 S5000x64 := dot_S5000x128_S128x64_S5000x64_1_0_0_1_n_n

/-- The left operand's row is the output's row. -/
theorem dims1_lhs_row (j : S5000x64.Idx) (x : dims1.contr.Idx) : (dims1.lhsIdx j x 0).val = (j 0).val := by
  unfold DotDims.lhsIdx
  rw [dif_neg (show ¬(0 : Fin S5000x128.rank) ∈ dims1.lhsBatch by decide), dif_pos (show (0 : Fin S5000x128.rank) ∈ dims1.lhsNonContracting by decide)]
  rfl
/-- The left operand's column is the contracted coordinate. -/
theorem dims1_lhs_col (j : S5000x64.Idx) (x : dims1.contr.Idx) : (dims1.lhsIdx j x 1).val = (x ⟨0, by decide⟩).val :=
  dims1.lhsIdx_val_of_single rfl j x
/-- The right operand's row is the contracted coordinate. -/
theorem dims1_rhs_row (j : S5000x64.Idx) (x : dims1.contr.Idx) : (dims1.rhsIdx j x 0).val = (x ⟨0, by decide⟩).val :=
  dims1.rhsIdx_val_of_single rfl j x
/-- The right operand's column is the output's column. -/
theorem dims1_rhs_col (j : S5000x64.Idx) (x : dims1.contr.Idx) : (dims1.rhsIdx j x 1).val = (j 1).val := by
  unfold DotDims.rhsIdx
  rw [dif_neg (show ¬(1 : Fin S128x64.rank) ∈ dims1.rhsBatch by decide), dif_pos (show (1 : Fin S128x64.rank) ∈ dims1.rhsNonContracting by decide)]
  rfl

/-- What one grid point stores, read at row `p` and column `q` of its block: recasting the left block to its own shape
    changes nothing, the narrowing of the operands is the identity on the extended reals and the accumulator is zero,
    so it is the row of the left block times the column of the right operand. -/
theorem blockProduct1_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  refine (Cert.LibRowOps.matmul_zero_apply (m := 5000) (k := 128) (n := 64) dims1 none
    (truncf .bf16 (shapeCast S5000x128 x0 shapeCasts_S5000x128_S5000x128) bitsLt_bf16_f32) (truncf .bf16 x1 bitsLt_bf16_f32) rfl rfl
    dims1_lhs_row dims1_lhs_col dims1_rhs_row dims1_rhs_col p q).trans ?_
  rw [shapeCast_self]
  rfl

/-- The index maps of region 1's three windows, decided over the grid: at point `t` the left operand's window and the
    output's are at row block `t`, the right operand's window is the whole operand. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole-array product: entry `(r, q)` is row `r` of the left operand times column `q` of the right operand. -/
def product1 (a : S100000x128.Idx → EReal) (w : S128x64.Idx → EReal) : S100000x64.Idx → EReal :=
  fun i => ∑ k : Fin 128, a (ix2 (⟨(i 0).val, (i 0).isLt⟩ : Fin 100000) k) * w (ix2 k (⟨(i 1).val, (i 1).isLt⟩ : Fin 64))

/-- The left operand's block at point `t` is its rows `5000 t … 5000 t + 4999`. -/
theorem leftBlock1_apply (c : Dev nD) (t : Fin cfg1.N) (y : Fin 5000) (k : Fin 128) (r : Fin 100000)
    (hr : r.val = 5000 * t.val + y.val) :
    (iblk1 V c 0 t : Vec Ideal S5000x128 .f32) (ix2 y k) = (V c main_v49 : S100000x128.Idx → EReal) (ix2 r k) := by
  obtain ⟨e0, e1, -⟩ := index_facts1 t
  unfold iblk1
  rw [View.read_apply]
  show (V c main_v49 : S100000x128.Idx → EReal) _ = _
  congr 1
  funext a
  apply Fin.ext
  match a with
  | ⟨0, _⟩ => show win1_0.index t (0 : Fin 2) * 5000 + 1 * y.val = r.val; rw [e0, hr]; omega
  | ⟨1, _⟩ => show win1_0.index t (1 : Fin 2) * 128 + 1 * k.val = k.val; rw [e1]; omega

/-- The right operand's block at every point is the whole operand. -/
theorem rightBlock1_apply (c : Dev nD) (t : Fin cfg1.N) (k : Fin 128) (q : Fin 64) :
    (iblk1 V c 1 t : Vec Ideal S128x64 .f32) (ix2 k q) = (V c main_arg4 : S128x64.Idx → EReal) (ix2 k q) := by
  obtain ⟨-, -, e2, e3, -⟩ := index_facts1 t
  unfold iblk1
  rw [View.read_apply]
  show (V c main_arg4 : S128x64.Idx → EReal) _ = _
  congr 1
  funext a
  apply Fin.ext
  match a with
  | ⟨0, _⟩ => show win1_1.index t (0 : Fin 2) * 128 + 1 * k.val = k.val; rw [e2]; omega
  | ⟨1, _⟩ => show win1_1.index t (1 : Fin 2) * 64 + 1 * q.val = q.val; rw [e3]; omega

/-- What point `t` writes back is block `t` of the whole-array product of the operands as the region finds them. -/
theorem flushed1_eq (c : Dev nD) (t : Fin cfg1.N) :
    (dat1 (F := Ideal) V c).flushed 2 t
      = ((cfg1.win 2).blk t).view.read (Elt Ideal) (product1 (V c main_v49) (V c main_arg4)) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S128x64) zeroOffsets]
  obtain ⟨-, -, -, -, e4, e5⟩ := index_facts1 t
  funext j
  obtain ⟨p, q, hj⟩ : ∃ (p : Fin 5000) (q : Fin 64), j = (ix2 p q : S5000x64.Idx) := ⟨j 0, j 1, eq_ix2 (n0 := 5000) (n1 := 64) j⟩
  subst hj
  show k1_pay1 (iblk1 V c 0 t) (iblk1 V c 1 t) (ix2 p q)
      = product1 (V c main_v49) (V c main_arg4) (((cfg1.win 2).blk t).view.emb (ix2 p q))
  refine (blockProduct1_apply (iblk1 V c 0 t) (iblk1 V c 1 t) p q).trans ?_
  unfold product1
  refine Finset.sum_congr rfl fun k _ => ?_
  refine congrArg₂ (· * ·) (leftBlock1_apply V c t p k _ ?_)
    ((rightBlock1_apply V c t k q).trans (congrArg (V c main_arg4 : S128x64.Idx → EReal) (congrArg (ix2 k) (Fin.ext ?_))))
  · show win1_2.index t (0 : Fin 2) * 5000 + 1 * p.val = 5000 * t.val + p.val
    rw [e4]; omega
  · show q.val = win1_2.index t (1 : Fin 2) * 64 + 1 * q.val
    rw [e5]; omega

/-- An index of the output array is in point `t`'s block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v50).slice (win1_2.rect t)).set ↔ _
  rw [View.set_slice_whole, Rect.mem_set_unit]
  exact Iff.rfl

/-- Every index of the output array is in the block of the point its row falls in: row `r` is covered by point `r / 5000`. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, e4, e5⟩ := index_facts1 t
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    rw [e4]; show (i 0).val / 5000 * 5000 ≤ (i 0).val ∧ (i 0).val < (i 0).val / 5000 * 5000 + 5000; omega
  | ⟨1, _⟩ =>
    show win1_2.index t (1 : Fin 2) * 64 ≤ (i 1).val ∧ (i 1).val < win1_2.index t (1 : Fin 2) * 64 + 64
    rw [e5]; omega

/-- The output array of region 1 after the region: the whole-array product of the operands as the region finds them. -/
theorem arrAt_product1 (c : Dev nD) :
    (dat1 (F := Ideal) V c).arrAt 2 cfg1.N = product1 (V c main_v49) (V c main_arg4) :=
  (dat1 (F := Ideal) V c).arrAt_eq_of_cover 2 (product1 (V c main_v49) (V c main_arg4))
    (fun t _ => flushed1_eq V c t) covered1

/-- Region 1 leaves in its output array, at row `p` and column `q`, row `p` of the left operand times column `q` of the
    right operand, whatever the arrays held when the region was entered. -/
theorem arrAt_mm1 (c : Dev nD) (p : Fin 100000) (q : Fin 64) :
    (dat1 (F := Ideal) V c).arrAt 2 cfg1.N (ValueIdx.ix2 p q)
      = ∑ k : Fin 128, @HMul.hMul EReal EReal EReal instHMul ((V c main_v49 : S100000x128.Idx → EReal) (ValueIdx.ix2 p k)) ((V c main_arg4 : S128x64.Idx → EReal) (ValueIdx.ix2 k q)) := by
  rw [arrAt_product1 V c]
  rfl

end Cert.KernelIdeal.MatmulRegion

end
-- ==== Proof.MeanRegion.lean ====
/-
  The mean over rows, region by region: what the third region leaves in its output array.

  The region walks a 100000 × 64 array in twenty blocks of 5000 rows. Its 1 × 64 output block never moves: at the first
  grid point it is set to zero, at every point the column sums of the point's block are added to it, and at the last
  point it is multiplied by the reciprocal of the number of rows; only then is it written back. So, at the ideal
  values, lane `l` of the output is (∑ over all 100000 rows of column `l`) · (1/100000), whatever the array held
  when the region was entered.

  The steps: what each of the three control cases leaves in the staging buffer, as the body's arithmetic applied to the
  running row and the input block; the running row by recursion on the grid point, and the staging buffer's contents
  equal to it by induction; the arithmetic read at a lane over the extended reals (a column sum is a finite sum, the
  zero row is zero, the named constant is 1/100000); a block's entry (k, l) at point t is the array's entry
  (5000 t + k, l); twenty blocks of 5000 rows regroup to one sum over 100000 rows, which holds in any commutative
  monoid, so no finiteness of the entries is used; and the single write-back, whose block is the whole output array.
-/
import proofs.«118084_j28355374088793_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Idealize.ShloMosaic.PureOps.IdealRules

noncomputable section

namespace Cert.KernelIdeal.MeanRegion

open Cert.KernelIdeal Cert.KernelIdeal.Gen Idealize.ShloMosaic Idealize.ShloMosaic.TcCoe Idealize.SL.Sem
open Idealize.ShloMosaic.Pipeline (Dat)
open Idealize.ShloMosaic.ValueIdx

section AnyValues

variable {F : FTy → Type} [FloatOps F] [Named F]

/-- The offsets of every access of the body: both coordinates zero. -/
theorem zero_offsets : (![0, 0] : Fin 2 → Nat) = fun _ => 0 := funext fun a => by fin_cases a <;> rfl

/-- The first grid point: the body stores the zero row, reads it back, and stores that row plus the column sums of the
    point's block. -/
theorem first_point (c : Dev nD) (i : grid2.Coords) (a1 : Memref sig .tc .vmem S5000x64 .f32) (h1 : a1.IsWhole)
    (a2 : Memref sig .tc .vmem S1x64 .f32) (h2 : a2.IsWhole) (hc0 : cond2_0 i) (hc1 : ¬cond2_1 i)
    (x : Vec F S5000x64 .f32) :
    out2_A_1 c i a1 h1 a2 h2 hc0 hc1 x = k2_pay2 (k2_pay1 (F := F)) x := by
  unfold out2_A_1
  rw [View.read_writes_eq_canon _ _ _ (cover2_A_1 c i a1 h1 a2 h2 hc0 hc1 x)]
  unfold kernelRun2_A
  dsimp only
  sl_unfold_words
  rw [View.canon_cons_unit_zero (S := S1x64) zero_offsets, View.readCov_unit_zero (S := S1x64) _ zero_offsets]
  simp only [View.readAt_eq_ld, h1.read_unread, View.ld_unit_zero (S := S5000x64) zero_offsets]

/-- A middle grid point: the body stores the running row plus the column sums of the point's block. -/
theorem middle_point (c : Dev nD) (i : grid2.Coords) (a1 : Memref sig .tc .vmem S5000x64 .f32) (h1 : a1.IsWhole)
    (a2 : Memref sig .tc .vmem S1x64 .f32) (h2 : a2.IsWhole) (hc0 : ¬cond2_0 i) (hc1 : ¬cond2_1 i)
    (x : Vec F S5000x64 .f32) (acc : Vec F S1x64 .f32) :
    out2_B_1 c i a1 h1 a2 h2 hc0 hc1 x acc = k2_pay2 acc x := by
  unfold out2_B_1
  rw [View.read_writes_eq_canon _ _ _ (cover2_B_1 c i a1 h1 a2 h2 hc0 hc1 x acc)]
  unfold kernelRun2_B
  dsimp only
  rw [View.canon_unit_zero zero_offsets]
  simp only [View.readAt_eq_ld, h1.read_unread, h2.read_unread, View.ld_unit_zero (S := S5000x64) zero_offsets,
    View.ld_unit_zero (S := S1x64) zero_offsets]

/-- The last grid point: the body adds the point's column sums to the running row, stores it, reads it back, and
    stores its product with the named reciprocal. -/
theorem last_point (c : Dev nD) (i : grid2.Coords) (a1 : Memref sig .tc .vmem S5000x64 .f32) (h1 : a1.IsWhole)
    (a2 : Memref sig .tc .vmem S1x64 .f32) (h2 : a2.IsWhole) (hc0 : ¬cond2_0 i) (hc1 : cond2_1 i)
    (x : Vec F S5000x64 .f32) (acc : Vec F S1x64 .f32) :
    out2_C_1 c i a1 h1 a2 h2 hc0 hc1 x acc = k2_pay3 (k2_pay2 acc x) := by
  unfold out2_C_1
  rw [View.read_writes_eq_canon _ _ _ (cover2_C_1 c i a1 h1 a2 h2 hc0 hc1 x acc)]
  unfold kernelRun2_C
  dsimp only
  sl_unfold_words
  rw [View.canon_cons_unit_zero (S := S1x64) zero_offsets, View.readCov_unit_zero (S := S1x64) _ zero_offsets]
  simp only [View.readAt_eq_ld, h1.read_unread, h2.read_unread, View.ld_unit_zero (S := S5000x64) zero_offsets,
    View.ld_unit_zero (S := S1x64) zero_offsets]

end AnyValues

section RunningRow

variable {F : FTy → Type} [FloatOps F] [Named F]
variable (V : (c : Dev nD) → (b : Ref sig .tc) → Buf (Elt F) ((c : Thread nD τ).loc b))

/-- The running row after grid point `n`: the zero row plus the column sums of block 0, then plus the column sums of
    each later block, in point order. -/
def runningRow (c : Dev nD) : (n : ℕ) → n < cfg2.N → Vec F S1x64 .f32
  | 0, h => k2_pay2 (k2_pay1 (F := F)) (iblk2 V c 0 ⟨0, h⟩)
  | n + 1, h => k2_pay2 (runningRow c n (Nat.lt_of_succ_lt h)) (iblk2 V c 0 ⟨n + 1, h⟩)

/-- Before the last point, the output's staging buffer holds the running row: by induction on the point. -/
theorem staged_eq_runningRow (c : Dev nD) :
    ∀ (n : ℕ) (h : n < cfg2.N), n < 19 → outsAt2 V c n h = runningRow V c n h
  | 0, h, _ => (outsAt2_A V c ⟨0, h⟩ rfl (by dsimp only; omega)).trans (first_point ..)
  | n + 1, h, h19 => by
    have h0 : ¬(⟨n + 1, h⟩ : Fin cfg2.N).val % 20 = 0 := by dsimp only; omega
    have h1 : ¬(⟨n + 1, h⟩ : Fin cfg2.N).val % 20 = 19 := by dsimp only; omega
    rw [outsAt2_B V c ⟨n + 1, h⟩ h0 h1, middle_point]
    show k2_pay2 (outsAt2 V c n _) _ = k2_pay2 (runningRow V c n _) _
    rw [staged_eq_runningRow c n _ (by omega)]

/-- After the last point it holds the full running row times the named reciprocal. -/
theorem staged_last (c : Dev nD) (h : 19 < cfg2.N) :
    outsAt2 V c 19 h = k2_pay3 (runningRow V c 19 h) := by
  rw [outsAt2_C V c ⟨19, h⟩ (by dsimp only; omega) rfl, last_point]
  show k2_pay3 (k2_pay2 (outsAt2 V c 18 _) _) = k2_pay3 (k2_pay2 (runningRow V c 18 _) _)
  rw [staged_eq_runningRow V c 18 _ (by omega)]

end RunningRow

section AtIdeal

/-- The named reciprocal is the rational 1/100000 at the ideal values. -/
theorem inv_rows : Named.named (F := Ideal) κ "inv_100000" (φ := .f32) 0x3727C5AC#32 = ((1 / 100000 : ℝ) : EReal) :=
  IdealRules.named_const.ideal_named_scalar _ _ _ _ rfl

/-- The zero row at a lane is the extended real zero. -/
theorem zeroRow_apply (l : Fin 64) : (k2_pay1 (F := Ideal)) (ix2 (0 : Fin 1) l) = 0 := by
  unfold k2_pay1
  exact Ideal.ofBits_zero_f32

/-- One accumulation step at a lane: the running row there plus the sum of the block's column. -/
theorem accumulate_apply (acc : Vec Ideal S1x64 .f32) (x : Vec Ideal S5000x64 .f32) (l : Fin 64) :
    k2_pay2 acc x (ix2 (0 : Fin 1) l) = acc (ix2 (0 : Fin 1) l) + ∑ k : Fin 5000, x (ix2 k l) := by
  unfold k2_pay2
  refine (addf_apply _ _ _).trans ?_
  refine congrArg₂ (· + ·) (congrFun (shapeCast_self acc _) _) ?_
  refine (shapeCast_a_1a_apply _ _ (0 : Fin 1) l).trans ?_
  refine (Ideal.multiReduction_add_single _ _ _ _ _ (ix1 l)).trans ?_
  show ∑ k : Fin 5000, shapeCast S5000x64 x shapeCasts_S5000x64_S5000x64 (reduces_S5000x64_S64.lift (ix1 l) k) = _
  refine Finset.sum_congr rfl fun k _ => ?_
  refine (congrFun (shapeCast_self x _) _).trans (congrArg x ?_)
  funext a
  match a with
  | ⟨0, _⟩ => rfl
  | ⟨1, _⟩ => rfl

/-- The final scaling at a lane: the row there times 1/100000. -/
theorem scale_apply (v : Vec Ideal S1x64 .f32) (l : Fin 64) :
    k2_pay3 v (ix2 (0 : Fin 1) l) = v (ix2 (0 : Fin 1) l) * ((1 / 100000 : ℝ) : EReal) := by
  unfold k2_pay3
  refine (mulf_apply _ _ _).trans ?_
  exact congrArg₂ (· * ·) (congrFun (shapeCast_self v _) _) inv_rows

end AtIdeal

section Blocks

variable (V : (c : Dev nD) → (b : Ref sig .tc) → Buf (Elt Ideal) ((c : Thread nD τ).loc b))

/-- The input window's block index at grid point `t` is `(t, 0)`: decided once over the grid. -/
theorem block_index : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- Row `k` of block `t` is row `5000 t + k` of the array. -/
def rowOf (t : Fin cfg2.N) (k : Fin 5000) : Fin 100000 :=
  ⟨5000 * t.val + k.val, by have := t.isLt; have hN : cfg2.N = 20 := N_2; have := k.isLt; omega⟩

/-- The block at point `t`, read at `(k, l)`, is the array as the region finds it at `(5000 t + k, l)`: a block's
    coordinate is the block index times the block size plus the coordinate inside the block. -/
theorem block_apply (c : Dev nD) (t : Fin cfg2.N) (k : Fin 5000) (l : Fin 64) :
    (iblk2 V c 0 t : Vec Ideal S5000x64 .f32) (ix2 k l)
      = (V c main_v66 : S100000x64.Idx → EReal) (ix2 (rowOf t k) l) := by
  unfold iblk2
  rw [View.read_apply]
  show (V c main_v66 : S100000x64.Idx → EReal) _ = _
  refine congrArg _ ?_
  funext a
  apply Fin.ext
  match a with
  | ⟨0, _⟩ =>
    show win2_0.index t 0 * 5000 + 1 * k.val = 5000 * t.val + k.val
    rw [(block_index t).1]; omega
  | ⟨1, _⟩ =>
    show win2_0.index t 1 * 64 + 1 * l.val = l.val
    rw [(block_index t).2]; omega

end Blocks

section Sums

variable (V : (c : Dev nD) → (b : Ref sig .tc) → Buf (Elt Ideal) ((c : Thread nD τ).loc b))

/-- The array the region reads, at lane `l` and row `r`, as an extended real. -/
def entry (c : Dev nD) (l : Fin 64) (r : Fin 100000) : EReal :=
  (V c main_v66 : S100000x64.Idx → EReal) (ix2 r l)

/-- The sum of column `l` over the rows of block `t` (zero past the grid, so that it is a function of a natural). -/
def blockColumnSum (c : Dev nD) (l : Fin 64) (t : ℕ) : EReal :=
  if h : t < cfg2.N then ∑ k : Fin 5000, entry V c l (rowOf ⟨t, h⟩ k) else 0

/-- The column sum of the block at a grid point is that block's column sum of the array. -/
theorem block_column_sum (c : Dev nD) (l : Fin 64) (n : ℕ) (h : n < cfg2.N) :
    (∑ k : Fin 5000, (iblk2 V c 0 ⟨n, h⟩ : Vec Ideal S5000x64 .f32) (ix2 k l) : EReal) = blockColumnSum V c l n := by
  unfold blockColumnSum
  rw [dif_pos h]
  exact Finset.sum_congr rfl fun k _ => block_apply V c ⟨n, h⟩ k l

/-- The running row after point `n`, at lane `l`, is the sum of the column sums of blocks `0 … n`. -/
theorem runningRow_apply (c : Dev nD) (l : Fin 64) : ∀ (n : ℕ) (h : n < cfg2.N),
    runningRow V c n h (ix2 (0 : Fin 1) l) = ∑ t ∈ Finset.range (n + 1), blockColumnSum V c l t
  | 0, h => by
    show k2_pay2 (k2_pay1 (F := Ideal)) (iblk2 V c 0 ⟨0, h⟩) (ix2 (0 : Fin 1) l) = _
    refine (accumulate_apply (k2_pay1 (F := Ideal)) (iblk2 V c 0 ⟨0, h⟩) l).trans ?_
    rw [zeroRow_apply, zero_add, Finset.sum_range_one]
    exact block_column_sum V c l 0 h
  | n + 1, h => by
    show k2_pay2 (runningRow V c n (Nat.lt_of_succ_lt h)) (iblk2 V c 0 ⟨n + 1, h⟩) (ix2 (0 : Fin 1) l) = _
    refine (accumulate_apply (runningRow V c n (Nat.lt_of_succ_lt h)) (iblk2 V c 0 ⟨n + 1, h⟩) l).trans ?_
    rw [runningRow_apply c l n (Nat.lt_of_succ_lt h), Finset.sum_range_succ _ (n + 1)]
    exact congrArg (_ + ·) (block_column_sum V c l (n + 1) h)

/-- Twenty blocks of five thousand rows are the hundred thousand rows: the pair `(t, k)` is row `5000 t + k`, a
    bijection, and a sum in a commutative monoid may be regrouped along it (no finiteness is asked). -/
theorem sum_blocks (c : Dev nD) (l : Fin 64) :
    ∑ t ∈ Finset.range 20, blockColumnSum V c l t = ∑ r : Fin 100000, entry V c l r := by
  have hN : cfg2.N = 20 := N_2
  rw [Finset.sum_range]
  have key : ∀ i : Fin 20, blockColumnSum V c l i.val
      = ∑ k : Fin 5000, entry V c l (finProdFinEquiv (i, k)) := by
    intro i
    unfold blockColumnSum
    rw [dif_pos (lt_of_lt_of_eq i.isLt hN.symm)]
    refine Finset.sum_congr rfl fun k _ => congrArg (entry V c l) (Fin.ext ?_)
    show 5000 * i.val + k.val = k.val + 5000 * i.val
    omega
  rw [Finset.sum_congr rfl fun i _ => key i,
    ← Fintype.sum_prod_type (fun p : Fin 20 × Fin 5000 => entry V c l (finProdFinEquiv p))]
  exact Equiv.sum_comp (finProdFinEquiv (m := 20) (n := 5000)) (entry V c l)

end Sums

section WrittenBack

variable {F : FTy → Type} [FloatOps F] [Named F]
variable (V : (c : Dev nD) → (b : Ref sig .tc) → Buf (Elt F) ((c : Thread nD τ).loc b))

/-- The last grid point, the only one after which the output block is written back. -/
def lastPoint : Fin cfg2.N := ⟨19, lt_of_lt_of_eq (by decide : 19 < 20) N_2.symm⟩

/-- What the output's staging buffer holds after the last point, as contents of the output array (its one block is
    the whole array). -/
abbrev lastStaged (c : Dev nD) : Buf (Elt F) ((c : Thread nD τ).loc main_v67) := outsAt2 V c 19 lastPoint.isLt

/-- The one write-back writes it: the output's block at offsets zero, of the array's own sizes, is the array. -/
theorem flushed_last (c : Dev nD) (t : Fin cfg2.N) (hf : (cfg2.win 1).flush t = true) :
    (dat2 V c).flushed 1 t = ((cfg2.win 1).blk t).view.read (Elt F) (lastStaged V c) := by
  have hN : cfg2.N = 20 := N_2
  have h19 : t.val = 19 := by have := (flush2_1 t).mp hf; have := t.isLt; omega
  obtain rfl : t = lastPoint := Fin.ext h19
  show (cfg2.win 1).cut (grid2.coords lastPoint) ((dat2 V c).after 1 lastPoint) = _
  rw [after2_1]
  have hz' : (fun a => win2_1.index lastPoint a * main_v67.ty.shape.size a) = fun _ => 0 :=
    funext fun a => by fin_cases a <;> decide
  exact (Memref.read_access_unit_zero (Elt F) main_v67 hz' (fun a => by rw [congrFun hz' a]; simp) (lastStaged V c)).symm

/-- So the output array ends holding what the staging buffer held after the last point: that point's block covers
    the array. -/
theorem arrAt_eq_lastStaged (c : Dev nD) : (dat2 V c).arrAt 1 cfg2.N = lastStaged V c :=
  (dat2 V c).arrAt_eq_of_cover 1 (lastStaged V c) (flushed_last V c) fun i =>
    ⟨lastPoint, (flush2_1 lastPoint).mpr rfl, by
      show i ∈ ((View.whole main_v67).slice (win2_1.rect lastPoint)).set
      rw [View.set_slice_whole, Rect.mem_set_unit]
      intro a
      have h0 : (i 0 : Nat) < 1 := (i 0).isLt
      have h1 : (i 1 : Nat) < 64 := (i 1).isLt
      match a with
      | ⟨0, _⟩ =>
        show win2_1.index lastPoint 0 * win2_1.size 0 ≤ (i 0 : Nat)
          ∧ (i 0 : Nat) < win2_1.index lastPoint 0 * win2_1.size 0 + win2_1.xsize (grid2.coords lastPoint) 0
        rw [show win2_1.index lastPoint 0 * win2_1.size 0 = 0 from by decide +kernel,
          show win2_1.xsize (grid2.coords lastPoint) 0 = 1 from by decide +kernel]
        omega
      | ⟨1, _⟩ =>
        show win2_1.index lastPoint 1 * win2_1.size 1 ≤ (i 1 : Nat)
          ∧ (i 1 : Nat) < win2_1.index lastPoint 1 * win2_1.size 1 + win2_1.xsize (grid2.coords lastPoint) 1
        rw [show win2_1.index lastPoint 1 * win2_1.size 1 = 0 from by decide +kernel,
          show win2_1.xsize (grid2.coords lastPoint) 1 = 64 from by decide +kernel]
        omega⟩

end WrittenBack

/-- THE REGION'S RESULT at the ideal values, for any contents `V` it is entered with: lane `l` of the output row is
    the sum of column `l` of the 100000 × 64 input array times 1/100000 — the column's mean. The twenty grid points
    add their blocks' column sums to a row that starts at zero, the last point scales it, and only then is it written
    back. -/
theorem arrAt_mean (V : (c : Dev nD) → (b : Ref sig .tc) → Buf (Elt Ideal) ((c : Thread nD τ).loc b)) (c : Dev nD) (l : Fin 64) :
    (dat2 (F := Ideal) V c).arrAt 1 cfg2.N (ValueIdx.ix2 (0 : Fin 1) l)
      = (∑ r : Fin 100000, (V c main_v66 : S100000x64.Idx → EReal) (ValueIdx.ix2 r l) : EReal) * ((1 / 100000 : ℝ) : EReal) := by
  rw [arrAt_eq_lastStaged V c]
  show outsAt2 V c 19 lastPoint.isLt (ix2 (0 : Fin 1) l) = (∑ r : Fin 100000, entry V c l r) * _
  rw [staged_last V c lastPoint.isLt]
  refine (scale_apply (runningRow V c 19 lastPoint.isLt) l).trans ?_
  rw [runningRow_apply V c l 19 lastPoint.isLt, sum_blocks V c l]

end Cert.KernelIdeal.MeanRegion

end
-- ==== Proof.HostFold.lean ====
/-
  The kernel program's result as a function of the launch memory, one segment at a time.

  The kernel program and the reference apply the SAME host operations around three places where they differ: the two
  matrix products (a pipelined region against one `dot_general`) and the mean over the node axis (a pipelined
  accumulation, then a product with 1/100000, against a sum and a quotient). So the kernel's buffers are read, segment
  by segment, as the reference's own stages `val_main_vN` of the arguments: a stretch of host operations maps stages to
  stages because it is the same text; a matrix-product region leaves the stage of the `dot_general` because both are
  the sum over the contracted axis of the products; buffers that no later segment writes (the edge lists, the
  normalization, the arguments) are carried unchanged through every later stretch and region.
-/
import proofs.«118084_j28355374088793_1_alg».proof.Proof.Gen.KernelIdeal.Frame
import proofs.«118084_j28355374088793_1_alg».proof.Proof.RefReadP
import proofs.«118084_j28355374088793_1_alg».proof.Proof.MatmulRegion
import proofs.«118084_j28355374088793_1_alg».proof.Proof.MeanRegion
import Idealize.ShloMosaic.Lib.ValueIdx
import Idealize.ShloMosaic.Lib.Pipeline.Value
import Idealize.ShloMosaic.Lib.StableHlo.Run

noncomputable section

namespace Cert.KernelIdeal.HostFold

open Cert.KernelIdeal Cert.KernelIdeal.Gen
open Idealize.ShloMosaic Idealize.ShloMosaic.TcCoe Idealize.SL.Sem Idealize.ShloMosaic.StableHlo
open Idealize.ShloMosaic.ValueIdx (ix1 ix2 eq_ix1 eq_ix2)

variable (m : (ℓ : Loc nD τ sig) → Buf (Elt Ideal) ℓ) (ρ : Dev nD → PrngReg) (c : Dev nD)

/-- The argument arrays as launched. -/
abbrev A0 : Buf (Elt Ideal) ((c : Thread nD τ).loc main_arg0) := m ((c : Thread nD τ).loc main_arg0)
abbrev A1 : Buf (Elt Ideal) ((c : Thread nD τ).loc main_arg1) := m ((c : Thread nD τ).loc main_arg1)
abbrev A2 : Buf (Elt Ideal) ((c : Thread nD τ).loc main_arg2) := m ((c : Thread nD τ).loc main_arg2)
abbrev A3 : Buf (Elt Ideal) ((c : Thread nD τ).loc main_arg3) := m ((c : Thread nD τ).loc main_arg3)
abbrev A4 : Buf (Elt Ideal) ((c : Thread nD τ).loc main_arg4) := m ((c : Thread nD τ).loc main_arg4)
abbrev A5 : Buf (Elt Ideal) ((c : Thread nD τ).loc main_arg5) := m ((c : Thread nD τ).loc main_arg5)

/-! ## Before the first region: the edge lists, the normalization, the arguments -/

theorem W3_arg0 : W3 m ρ c (Proc.devRef .tc main_arg0) = A0 m c := by
  dsimp only [W3, W2, W1, hostOps0_2, hostOps0_1, hostOps0]; after_results_simp
theorem W3_arg2 : W3 m ρ c (Proc.devRef .tc main_arg2) = A2 m c := by
  dsimp only [W3, W2, W1, hostOps0_2, hostOps0_1, hostOps0]; after_results_simp
theorem W3_arg3 : W3 m ρ c (Proc.devRef .tc main_arg3) = A3 m c := by
  dsimp only [W3, W2, W1, hostOps0_2, hostOps0_1, hostOps0]; after_results_simp
theorem W3_arg4 : W3 m ρ c (Proc.devRef .tc main_arg4) = A4 m c := by
  dsimp only [W3, W2, W1, hostOps0_2, hostOps0_1, hostOps0]; after_results_simp
theorem W3_arg5 : W3 m ρ c (Proc.devRef .tc main_arg5) = A5 m c := by
  dsimp only [W3, W2, W1, hostOps0_2, hostOps0_1, hostOps0]; after_results_simp

/-- The sources of the edges with the self loops appended. -/
theorem W3_v3 : W3 m ρ c (Proc.devRef .tc main_v3) = Cert.ReferenceIdeal.ReadP.val_main_v3 (F := Ideal) (A1 m c) := by
  dsimp only [W3, W2, W1, hostOps0_2, hostOps0_1, hostOps0]; after_results_simp; rfl
/-- The targets of the edges with the self loops appended. -/
theorem W3_v6 : W3 m ρ c (Proc.devRef .tc main_v6) = Cert.ReferenceIdeal.ReadP.val_main_v6 (F := Ideal) (A1 m c) := by
  dsimp only [W3, W2, W1, hostOps0_2, hostOps0_1, hostOps0]; after_results_simp; rfl

/-- After the first stretch: is a node's degree positive, and the inverse square root of the degree raised to one. -/
theorem first_v12 : StableHlo.after hostOps0 (W0 m ρ c) (Proc.devRef .tc main_v12) = Cert.ReferenceIdeal.ReadP.val_main_v12 (F := Ideal) (A1 m c) := by
  dsimp only [hostOps0]; after_results_simp; rfl
theorem first_v15 : StableHlo.after hostOps0 (W0 m ρ c) (Proc.devRef .tc main_v15) = Cert.ReferenceIdeal.ReadP.val_main_v15 (F := Ideal) (A1 m c) := by
  dsimp only [hostOps0]; after_results_simp; rfl
theorem first_cst3 : StableHlo.after hostOps0 (W0 m ρ c) (Proc.devRef .tc main_cst_3) = Cert.ReferenceIdeal.ReadP.val_main_cst_3 (F := Ideal) := by
  dsimp only [hostOps0]; after_results_simp; rfl
theorem first_v3 : StableHlo.after hostOps0 (W0 m ρ c) (Proc.devRef .tc main_v3) = Cert.ReferenceIdeal.ReadP.val_main_v3 (F := Ideal) (A1 m c) := by
  dsimp only [hostOps0]; after_results_simp; rfl
theorem first_v6 : StableHlo.after hostOps0 (W0 m ρ c) (Proc.devRef .tc main_v6) = Cert.ReferenceIdeal.ReadP.val_main_v6 (F := Ideal) (A1 m c) := by
  dsimp only [hostOps0]; after_results_simp; rfl

/-- The second stretch (the outlined `where`) from ANY contents, as a plain select of what it reads: the moves between
    a buffer's own type and the tensor type are identities. -/
theorem where_raw (U : Valuation τ sig (Elt Ideal)) :
    StableHlo.after hostOps0_1 U (Proc.devRef .tc main_v16)
      = (select (U (Proc.devRef .tc main_v12) : (⟨S100000, .i1⟩ : BufTy).Contents (Elt Ideal))
          (U (Proc.devRef .tc main_v15) : (⟨S100000, .f32⟩ : BufTy).Contents (Elt Ideal))
          (broadcastInDim S100000 ![] bcast_S_S100000 (id (U (Proc.devRef .tc main_cst_3) : (⟨S_, .f32⟩ : BufTy).Contents (Elt Ideal)))) : (⟨S100000, .f32⟩ : BufTy).Contents (Elt Ideal)) := by
  dsimp only [hostOps0_1]; after_results_simp
  generalize U (Proc.devRef .tc main_v12) = p
  generalize U (Proc.devRef .tc main_v15) = x
  generalize U (Proc.devRef .tc main_cst_3) = z
  rfl

/-- So from contents that hold the three stages it reads it leaves the next stage: the inverse square root of the
    degree where the degree is positive, zero elsewhere. -/
theorem second_v16 (U : Valuation τ sig (Elt Ideal)) (a1 : (⟨Cert.ReferenceIdeal.S2x1600000, .i32⟩ : BufTy).Contents (Elt Ideal))
    (h12 : U (Proc.devRef .tc main_v12) = Cert.ReferenceIdeal.ReadP.val_main_v12 (F := Ideal) a1)
    (h15 : U (Proc.devRef .tc main_v15) = Cert.ReferenceIdeal.ReadP.val_main_v15 (F := Ideal) a1)
    (hc3 : U (Proc.devRef .tc main_cst_3) = Cert.ReferenceIdeal.ReadP.val_main_cst_3 (F := Ideal)) :
    StableHlo.after hostOps0_1 U (Proc.devRef .tc main_v16) = Cert.ReferenceIdeal.ReadP.val_main_v16 (F := Ideal) a1 := by
  rw [where_raw U, h12, h15, hc3]
  rfl
theorem second_keep (U : Valuation τ sig (Elt Ideal)) (b : Ref sig .tc) (h0 : b ≠ main_call0_v0) (h1 : b ≠ main_call0_v1) (h2 : b ≠ main_v16) :
    StableHlo.after hostOps0_1 U (Proc.devRef .tc b) = U (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes, Finset.mem_singleton]
    exact ⟨StableHlo.devRef_ne_of_ne h0, StableHlo.devRef_ne_of_ne h1, StableHlo.devRef_ne_of_ne h2⟩))

/-- The third stretch, from ANY contents that hold the three stages it reads: the product of the two ends'
    inverse square roots, edge by edge. -/
theorem third_v31 (U : Valuation τ sig (Elt Ideal)) (a1 : (⟨Cert.ReferenceIdeal.S2x1600000, .i32⟩ : BufTy).Contents (Elt Ideal))
    (h16 : U (Proc.devRef .tc main_v16) = Cert.ReferenceIdeal.ReadP.val_main_v16 (F := Ideal) a1)
    (h3 : U (Proc.devRef .tc main_v3) = Cert.ReferenceIdeal.ReadP.val_main_v3 (F := Ideal) a1)
    (h6 : U (Proc.devRef .tc main_v6) = Cert.ReferenceIdeal.ReadP.val_main_v6 (F := Ideal) a1) :
    StableHlo.after hostOps0_2 U (Proc.devRef .tc main_v31) = Cert.ReferenceIdeal.ReadP.val_main_v31 (F := Ideal) a1 := by
  dsimp only [hostOps0_2]; after_results_simp; rw [h16, h3, h6]; rfl

/-- The symmetric normalization of every edge. -/
theorem W3_v31 : W3 m ρ c (Proc.devRef .tc main_v31) = Cert.ReferenceIdeal.ReadP.val_main_v31 (F := Ideal) (A1 m c) :=
  third_v31 (W2 m ρ c) (A1 m c)
    (second_v16 (W1 m ρ c) (A1 m c) (first_v12 m ρ c) (first_v15 m ρ c) (first_cst3 m ρ c))
    ((second_keep (W1 m ρ c) main_v3 (by decide) (by decide) (by decide)).trans (first_v3 m ρ c))
    ((second_keep (W1 m ρ c) main_v6 (by decide) (by decide) (by decide)).trans (first_v6 m ρ c))

/-! ## The first matrix product -/

/-- The first region leaves x·W1, the reference's first `dot_general`: both are, entry by entry, the sum over the
    128 contracted columns of the products. -/
theorem product0_eq (a : Cert.ReferenceIdeal.S100000x128.Idx → EReal) (w : Cert.ReferenceIdeal.S128x128.Idx → EReal) :
    Cert.KernelIdeal.MatmulRegion.product0 a w = Cert.ReferenceIdeal.ReadP.val_main_v32 (F := Ideal) a w := by
  funext i
  rw [Cert.ReferenceIdeal.ReadP.val_main_v32_apply]
  show ∑ k : Fin 128, a (ix2 (⟨(i 0).val, (i 0).isLt⟩ : Fin 100000) k) * w (ix2 k (⟨(i 1).val, (i 1).isLt⟩ : Fin 128)) = _
  refine Finset.sum_congr rfl fun k _ => ?_
  have il : Cert.ReferenceIdeal.ReadP.lidx_main_v32 i k = ix2 (⟨(i 0).val, (i 0).isLt⟩ : Fin 100000) k :=
    funext fun d => Fin.ext (by match d with | ⟨0, _⟩ => rfl | ⟨1, _⟩ => rfl)
  have ir : Cert.ReferenceIdeal.ReadP.ridx_main_v32 i k = ix2 k (⟨(i 1).val, (i 1).isLt⟩ : Fin 128) :=
    funext fun d => Fin.ext (by match d with | ⟨0, _⟩ => rfl | ⟨1, _⟩ => rfl)
  rw [il, ir]

theorem W4_v32 : W4 m ρ c (Proc.devRef .tc main_v32) = Cert.ReferenceIdeal.ReadP.val_main_v32 (F := Ideal) (A0 m c) (A2 m c) := by
  refine (W4_arr m ρ c 2).trans ((Cert.KernelIdeal.MatmulRegion.arrAt_product0 (V3 m ρ) c).trans ?_)
  have e0 : V3 m ρ c main_arg0 = A0 m c := W3_arg0 m ρ c
  have e2 : V3 m ρ c main_arg2 = A2 m c := W3_arg2 m ρ c
  rw [e0, e2]
  exact product0_eq _ _

/-- No array of the first region is one of the carried buffers. -/
theorem W4_v3 : W4 m ρ c (Proc.devRef .tc main_v3) = Cert.ReferenceIdeal.ReadP.val_main_v3 (F := Ideal) (A1 m c) :=
  (W4_of_ne m ρ c main_v3 (by decide)).trans (W3_v3 m ρ c)
theorem W4_v6 : W4 m ρ c (Proc.devRef .tc main_v6) = Cert.ReferenceIdeal.ReadP.val_main_v6 (F := Ideal) (A1 m c) :=
  (W4_of_ne m ρ c main_v6 (by decide)).trans (W3_v6 m ρ c)
theorem W4_v31 : W4 m ρ c (Proc.devRef .tc main_v31) = Cert.ReferenceIdeal.ReadP.val_main_v31 (F := Ideal) (A1 m c) :=
  (W4_of_ne m ρ c main_v31 (by decide)).trans (W3_v31 m ρ c)
theorem W4_arg3 : W4 m ρ c (Proc.devRef .tc main_arg3) = A3 m c := (W4_of_ne m ρ c main_arg3 (by decide)).trans (W3_arg3 m ρ c)
theorem W4_arg4 : W4 m ρ c (Proc.devRef .tc main_arg4) = A4 m c := (W4_of_ne m ρ c main_arg4 (by decide)).trans (W3_arg4 m ρ c)
theorem W4_arg5 : W4 m ρ c (Proc.devRef .tc main_arg5) = A5 m c := (W4_of_ne m ρ c main_arg5 (by decide)).trans (W3_arg5 m ρ c)

/-! ## The first layer's aggregation, bias and ReLU: the same host operations -/

/-- The first layer before the ReLU: gather the sources' rows, scale by the normalization, add into the targets' rows,
    add the bias. -/
theorem W5_v48 : W5 m ρ c (Proc.devRef .tc main_v48)
    = Cert.ReferenceIdeal.ReadP.val_main_v48 (F := Ideal) (A0 m c) (A1 m c) (A2 m c) (A3 m c) := by
  dsimp only [W5, hostOps1]
  after_results_simp
  rw [W4_v32, W4_v3, W4_v6, W4_v31, W4_arg3]
  rfl

/-- The outlined ReLU from ANY contents, as a plain maximum with the zero array. -/
theorem relu_raw (U : Valuation τ sig (Elt Ideal)) :
    StableHlo.after hostOps1_1 U (Proc.devRef .tc main_v49)
      = (maximumf (F := Ideal) (U (Proc.devRef .tc main_v48) : (⟨S100000x128, .f32⟩ : BufTy).Contents (Elt Ideal))
          (broadcastInDim S100000x128 ![] bcast_S_S100000x128 (constant (F := Ideal) S_ .f32 0x00000000#32)) : (⟨S100000x128, .f32⟩ : BufTy).Contents (Elt Ideal)) := by
  dsimp only [hostOps1_1]; after_results_simp
  generalize U (Proc.devRef .tc main_v48) = y
  rfl

/-- So from contents that hold the stage it reads it leaves the next stage. -/
theorem relu_v49 (U : Valuation τ sig (Elt Ideal))
    (a0 : (⟨Cert.ReferenceIdeal.S100000x128, .f32⟩ : BufTy).Contents (Elt Ideal)) (a1 : (⟨Cert.ReferenceIdeal.S2x1600000, .i32⟩ : BufTy).Contents (Elt Ideal))
    (a2 : (⟨Cert.ReferenceIdeal.S128x128, .f32⟩ : BufTy).Contents (Elt Ideal)) (a3 : (⟨Cert.ReferenceIdeal.S128, .f32⟩ : BufTy).Contents (Elt Ideal))
    (h48 : U (Proc.devRef .tc main_v48) = Cert.ReferenceIdeal.ReadP.val_main_v48 (F := Ideal) a0 a1 a2 a3) :
    StableHlo.after hostOps1_1 U (Proc.devRef .tc main_v49) = Cert.ReferenceIdeal.ReadP.val_main_v49 (F := Ideal) a0 a1 a2 a3 := by
  rw [relu_raw U, h48]
  rfl

theorem W6_v49 : W6 m ρ c (Proc.devRef .tc main_v49)
    = Cert.ReferenceIdeal.ReadP.val_main_v49 (F := Ideal) (A0 m c) (A1 m c) (A2 m c) (A3 m c) :=
  relu_v49 (W5 m ρ c) (A0 m c) (A1 m c) (A2 m c) (A3 m c) (W5_v48 m ρ c)
theorem W6_v3 : W6 m ρ c (Proc.devRef .tc main_v3) = Cert.ReferenceIdeal.ReadP.val_main_v3 (F := Ideal) (A1 m c) := by
  refine Eq.trans ?_ (W4_v3 m ρ c); dsimp only [W6, W5, hostOps1_1, hostOps1]; after_results_simp
theorem W6_v6 : W6 m ρ c (Proc.devRef .tc main_v6) = Cert.ReferenceIdeal.ReadP.val_main_v6 (F := Ideal) (A1 m c) := by
  refine Eq.trans ?_ (W4_v6 m ρ c); dsimp only [W6, W5, hostOps1_1, hostOps1]; after_results_simp
theorem W6_v31 : W6 m ρ c (Proc.devRef .tc main_v31) = Cert.ReferenceIdeal.ReadP.val_main_v31 (F := Ideal) (A1 m c) := by
  refine Eq.trans ?_ (W4_v31 m ρ c); dsimp only [W6, W5, hostOps1_1, hostOps1]; after_results_simp
theorem W6_arg4 : W6 m ρ c (Proc.devRef .tc main_arg4) = A4 m c := by
  refine Eq.trans ?_ (W4_arg4 m ρ c); dsimp only [W6, W5, hostOps1_1, hostOps1]; after_results_simp
theorem W6_arg5 : W6 m ρ c (Proc.devRef .tc main_arg5) = A5 m c := by
  refine Eq.trans ?_ (W4_arg5 m ρ c); dsimp only [W6, W5, hostOps1_1, hostOps1]; after_results_simp

/-! ## The second matrix product -/

/-- The second region leaves h·W2, the reference's second `dot_general`. -/
theorem product1_eq (a0 : (⟨Cert.ReferenceIdeal.S100000x128, .f32⟩ : BufTy).Contents (Elt Ideal)) (a1 : (⟨Cert.ReferenceIdeal.S2x1600000, .i32⟩ : BufTy).Contents (Elt Ideal))
    (a2 : (⟨Cert.ReferenceIdeal.S128x128, .f32⟩ : BufTy).Contents (Elt Ideal)) (a3 : (⟨Cert.ReferenceIdeal.S128, .f32⟩ : BufTy).Contents (Elt Ideal))
    (a4 : (⟨Cert.ReferenceIdeal.S128x64, .f32⟩ : BufTy).Contents (Elt Ideal)) :
    Cert.KernelIdeal.MatmulRegion.product1 (Cert.ReferenceIdeal.ReadP.val_main_v49 (F := Ideal) a0 a1 a2 a3) a4 = Cert.ReferenceIdeal.ReadP.val_main_v50 (F := Ideal) a0 a1 a2 a3 a4 := by
  funext i
  rw [Cert.ReferenceIdeal.ReadP.val_main_v50_apply]
  generalize Cert.ReferenceIdeal.ReadP.val_main_v49 (F := Ideal) a0 a1 a2 a3 = h
  show ∑ k : Fin 128, (h : Cert.ReferenceIdeal.S100000x128.Idx → EReal) (ix2 (⟨(i 0).val, (i 0).isLt⟩ : Fin 100000) k) * (a4 : Cert.ReferenceIdeal.S128x64.Idx → EReal) (ix2 k (⟨(i 1).val, (i 1).isLt⟩ : Fin 64)) = _
  refine Finset.sum_congr rfl fun k _ => ?_
  have il : Cert.ReferenceIdeal.ReadP.lidx_main_v50 i k = ix2 (⟨(i 0).val, (i 0).isLt⟩ : Fin 100000) k :=
    funext fun d => Fin.ext (by match d with | ⟨0, _⟩ => rfl | ⟨1, _⟩ => rfl)
  have ir : Cert.ReferenceIdeal.ReadP.ridx_main_v50 i k = ix2 k (⟨(i 1).val, (i 1).isLt⟩ : Fin 64) :=
    funext fun d => Fin.ext (by match d with | ⟨0, _⟩ => rfl | ⟨1, _⟩ => rfl)
  rw [il, ir]

theorem W7_v50 : W7 m ρ c (Proc.devRef .tc main_v50)
    = Cert.ReferenceIdeal.ReadP.val_main_v50 (F := Ideal) (A0 m c) (A1 m c) (A2 m c) (A3 m c) (A4 m c) := by
  refine (W7_arr m ρ c 2).trans ((Cert.KernelIdeal.MatmulRegion.arrAt_product1 (V6 m ρ) c).trans ?_)
  have e0 : V6 m ρ c main_v49 = Cert.ReferenceIdeal.ReadP.val_main_v49 (F := Ideal) (A0 m c) (A1 m c) (A2 m c) (A3 m c) := W6_v49 m ρ c
  have e4 : V6 m ρ c main_arg4 = A4 m c := W6_arg4 m ρ c
  rw [e0, e4]
  exact product1_eq _ _ _ _ _

theorem W7_v3 : W7 m ρ c (Proc.devRef .tc main_v3) = Cert.ReferenceIdeal.ReadP.val_main_v3 (F := Ideal) (A1 m c) :=
  (W7_of_ne m ρ c main_v3 (by decide)).trans (W6_v3 m ρ c)
theorem W7_v6 : W7 m ρ c (Proc.devRef .tc main_v6) = Cert.ReferenceIdeal.ReadP.val_main_v6 (F := Ideal) (A1 m c) :=
  (W7_of_ne m ρ c main_v6 (by decide)).trans (W6_v6 m ρ c)
theorem W7_v31 : W7 m ρ c (Proc.devRef .tc main_v31) = Cert.ReferenceIdeal.ReadP.val_main_v31 (F := Ideal) (A1 m c) :=
  (W7_of_ne m ρ c main_v31 (by decide)).trans (W6_v31 m ρ c)
theorem W7_arg5 : W7 m ρ c (Proc.devRef .tc main_arg5) = A5 m c := (W7_of_ne m ρ c main_arg5 (by decide)).trans (W6_arg5 m ρ c)

/-! ## The second layer's aggregation and bias: the same host operations -/

theorem W8_v66 : W8 m ρ c (Proc.devRef .tc main_v66)
    = Cert.ReferenceIdeal.ReadP.val_main_v66 (F := Ideal) (A0 m c) (A1 m c) (A2 m c) (A3 m c) (A4 m c) (A5 m c) := by
  dsimp only [W8, hostOps2]
  after_results_simp
  rw [W7_v50, W7_v3, W7_v6, W7_v31, W7_arg5]
  rfl

/-! ## The mean over the nodes, and the result -/

/-- The result buffer, entry by entry: the sum over all 100000 nodes of the second layer's output, times 1/100000. -/
theorem W10_v68 (l : Fin 64) : (W10 m ρ c (Proc.devRef .tc main_v68) : S64.Idx → EReal) (ix1 l)
    = (∑ r : Fin 100000, (Cert.ReferenceIdeal.ReadP.val_main_v66 (F := Ideal) (A0 m c) (A1 m c) (A2 m c) (A3 m c) (A4 m c) (A5 m c) : Cert.ReferenceIdeal.S100000x64.Idx → EReal) (ix2 r l) : EReal)
        * ((1 / 100000 : ℝ) : EReal) := by
  have hr : (W10 m ρ c (Proc.devRef .tc main_v68) : S64.Idx → EReal)
      = shapeCast S64 (W9 m ρ c (Proc.devRef .tc main_v67) : S1x64.Idx → EReal) shapeCasts_S1x64_S64 := by
    dsimp only [W10, hostOps3]; after_results_simp; rfl
  rw [hr, shapeCast_apply (W9 m ρ c (Proc.devRef .tc main_v67) : S1x64.Idx → EReal) shapeCasts_S1x64_S64 (ix1 l) (ix2 (0 : Fin 1) l)
    ((Shape.rowMajor_val_two (d := ![1, 64]) (ix2 (0 : Fin 1) l)).trans
      ((show (0 : Nat) * 64 + l.val = l.val by omega).trans (Shape.rowMajor_val_one (d := ![64]) (ix1 l)).symm))]
  rw [show (W9 m ρ c (Proc.devRef .tc main_v67) : S1x64.Idx → EReal) = (dat2 (V8 m ρ) c).arrAt 1 cfg2.N from W9_arr m ρ c 1]
  rw [Cert.KernelIdeal.MeanRegion.arrAt_mean (V8 m ρ) c l]
  have e : (V8 m ρ c main_v66 : S100000x64.Idx → EReal)
      = Cert.ReferenceIdeal.ReadP.val_main_v66 (F := Ideal) (A0 m c) (A1 m c) (A2 m c) (A3 m c) (A4 m c) (A5 m c) := W8_v66 m ρ c
  rw [e]

end Cert.KernelIdeal.HostFold

end
-- ==== Proof.Bridge.lean ====
/-
  The two results are one function of the arguments.

  The kernel program ends with, at entry l of its result, the sum over all 100000 nodes of the second layer's output
  at (node, l), times the rational 1/100000 that the named constant denotes. The reference ends with the same sum,
  started from +0.0, divided by the constant 100000.0, which denotes the real 100000. On the extended reals the
  quotient by a nonzero real y IS the product with 1/y, so the two agree entry by entry; no finiteness of the
  inputs is used.
-/
import proofs.«118084_j28355374088793_1_alg».proof.Proof.HostFold
import Idealize.ShloMosaic.PureOps.Ideal.Laws

noncomputable section

namespace Cert.KernelIdeal.Bridge

open Cert.KernelIdeal Cert.KernelIdeal.Gen Cert.KernelIdeal.HostFold
open Idealize.ShloMosaic Idealize.ShloMosaic.TcCoe Idealize.SL.Sem
open Idealize.ShloMosaic.ValueIdx (ix1 ix2 eq_ix1 eq_ix2)

/-- The reference's divisor `100000.0` denotes the real 100000. -/
theorem ofBits_100000 : Ideal.ofBits .f32 0x47C35000#32 = ((100000 : ℝ) : EReal) := by
  simp [Ideal.ofBits, Ideal.ieee, -EReal.coe_mul]; norm_num

variable (m : (ℓ : Loc nD τ sig) → Buf (Elt Ideal) ℓ) (ρ : Dev nD → PrngReg) (c : Dev nD)

/-- The kernel program's result buffer holds the reference's last stage of the arguments. -/
theorem result_eq : (W10 m ρ c (Proc.devRef .tc main_v68) : S64.Idx → EReal)
    = Cert.ReferenceIdeal.ReadP.val_main_v69 (F := Ideal) (A0 m c) (A1 m c) (A2 m c) (A3 m c) (A4 m c) (A5 m c) := by
  funext i
  obtain ⟨l, rfl⟩ : ∃ l : Fin 64, i = ix1 l := ⟨i 0, eq_ix1 i⟩
  refine (W10_v68 m ρ c l).trans ?_
  rw [Cert.ReferenceIdeal.ReadP.val_main_v69_apply, Cert.ReferenceIdeal.ReadP.val_main_v67_apply,
    Cert.ReferenceIdeal.ReadP.val_main_v68_apply, Cert.ReferenceIdeal.ReadP.val_main_cst_14_apply,
    Cert.ReferenceIdeal.ReadP.val_main_cst_13_apply]
  have ik : ∀ k : Fin 100000, Cert.ReferenceIdeal.ReadP.idx_main_v67 (ix1 l) k = ix2 k l :=
    fun k => funext fun a => Fin.ext (by match a with | ⟨0, _⟩ => rfl | ⟨1, _⟩ => rfl)
  simp only [ik, Ideal.hostDivf_def, Ideal.ofBits_def, ofBits_100000, Ideal.div_coe (by norm_num : (100000 : ℝ) ≠ 0),
    Ideal.ofBits_zero_f32, zero_add]

end Cert.KernelIdeal.Bridge

end
-- ==== Proof.lean ====
/-
  The certificate of a two-layer graph convolution with a mean pool, against its jnp reference, over the extended reals.

  Both programs compute, for node features x, an edge list, and two weight matrices and biases: the symmetric
  normalization of the edges (with self loops), h = relu(aggregate(x·W1) + b1), out = aggregate(h·W2) + b2, and the mean
  of out over the 100000 nodes. They apply the same host operations for the normalization, the gathers and the
  scatter-adds. They differ in three places: each matrix product is a pipelined region of 20 row blocks in the kernel
  program (operands narrowed to bf16, which is the identity on the extended reals, and accumulated from zero) and one
  `dot_general` in the reference — both the sum over the contracted axis of the products; and the mean is, in the kernel
  program, a pipelined accumulation of the 20 blocks' column sums from zero followed by a product with the named constant
  1/100000, and in the reference a sum from zero followed by a quotient by 100000 — equal because sums of extended reals
  may be regrouped and the quotient by a nonzero real is the product with its inverse.

  The three frames are the generated ones (the reference's is its run with the result dropped); the one ledger entry
  of the idealization is the named constant's value; the algebraic claim is the kernel program's run with its result
  kept (WholeRun), read segment by segment as the reference's stages (HostFold over MatmulRegion and MeanRegion), and
  joined to the reference's last stage (Bridge).
-/
import proofs.«118084_j28355374088793_1_alg».proof.Defs
import proofs.«118084_j28355374088793_1_alg».proof.Proof.Gen.Kernel
import proofs.«118084_j28355374088793_1_alg».proof.Proof.Gen.Kernel.Skeleton
import proofs.«118084_j28355374088793_1_alg».proof.Proof.Gen.Kernel.Launch
import proofs.«118084_j28355374088793_1_alg».proof.Proof.Gen.Kernel.Points
import proofs.«118084_j28355374088793_1_alg».proof.Proof.Gen.Kernel.Frame
import proofs.«118084_j28355374088793_1_alg».proof.Proof.Gen.KernelIdeal
import proofs.«118084_j28355374088793_1_alg».proof.Proof.Gen.KernelIdeal.Skeleton
import proofs.«118084_j28355374088793_1_alg».proof.Proof.Gen.KernelIdeal.Launch
import proofs.«118084_j28355374088793_1_alg».proof.Proof.Gen.KernelIdeal.Points
import proofs.«118084_j28355374088793_1_alg».proof.Proof.Gen.KernelIdeal.Frame
import proofs.«118084_j28355374088793_1_alg».proof.Proof.Gen.ReferenceIdeal
import proofs.«118084_j28355374088793_1_alg».proof.Proof.Gen.Pre_finite_inputs
import proofs.«118084_j28355374088793_1_alg».proof.Proof.RefRunP
import proofs.«118084_j28355374088793_1_alg».proof.Proof.RefReadP
import proofs.«118084_j28355374088793_1_alg».proof.Proof.WholeRun
import proofs.«118084_j28355374088793_1_alg».proof.Proof.Bridge
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts] [hP : Cert.Pre_finite_inputs.Facts]

end Claims

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- The ledger's one entry: the table gives "inv_100000" the value 1/100000, and the printed constant is that value
    on the extended reals. -/
theorem preserves : Cert.preserves_Kernel_KernelIdeal :=
  IdealRules.named_const.statement Cert.KernelIdeal.κ "inv_100000" .f32 0x3727C5AC#32 ((1 / 100000 : ℝ) : EReal) rfl

/-- From memories that agree on the arguments both programs run, and end with the same result: the kernel program's
    result buffer holds the reference's last stage of the arguments (Bridge.result_eq). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W10 m ρ c (Proc.devRef .tc Cert.KernelIdeal.main_v68),
    Cert.KernelIdeal.WholeRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v69_eq, (hagree c).1, (hagree c).2.1, (hagree c).2.2.1, (hagree c).2.2.2.1,
    (hagree c).2.2.2.2.1, (hagree c).2.2.2.2.2]
  exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
